-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32768x128 : Shape := ⟨3, ![4, 32768, 128]⟩
abbrev S4x32768 : Shape := ⟨2, ![4, 32768]⟩
abbrev S4x65536 : Shape := ⟨2, ![4, 65536]⟩
abbrev S4x65536x128 : Shape := ⟨3, ![4, 65536, 128]⟩
abbrev S256x128 : Shape := ⟨2, ![256, 128]⟩
abbrev S128 : Shape := ⟨1, ![128]⟩
abbrev S_ : Shape := ⟨0, ![]⟩

class Facts : Prop where
  bcast_S_S4x32768x128 : S_.BroadcastsInDim S4x32768x128 (![] : Fin 0 → Fin S4x32768x128.rank)
  reducesTo_S4x32768x128_S_d0_1_2 : S4x32768x128.ReducesTo [0, 1, 2] S_
  h_S_ : 0 < S_.numel
  bcast_S_S4x65536x128 : S_.BroadcastsInDim S4x65536x128 (![] : Fin 0 → Fin S4x65536x128.rank)
  reducesTo_S4x65536x128_S_d0_1_2 : S4x65536x128.ReducesTo [0, 1, 2] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4x32768x128 .f32) (main_arg1 : IVec S4x32768 32) (main_arg2 : IVec S4x65536 32) (main_arg3 : FVec F S4x65536x128 .f32) (main_arg4 : FVec F S256x128 .f32) (main_arg5 : FVec F S128 .f32) : IVec S_ 1 :=
  let main_v0 : FVec F S4x32768x128 .f32 := Host.absf main_arg0
  let main_cst : FVec F S_ .f32 := constant S_ .f32 0x7F800000#32
  let main_v1 : FVec F S4x32768x128 .f32 := broadcastInDim S4x32768x128 ![] bcast_S_S4x32768x128 main_cst
  let main_v2 : IVec S4x32768x128 1 := cmpf .olt main_v0 main_v1
  let main_c : IVec S_ 1 := constantI S_ 1 1#1
  let main_v3 : IVec S_ 1 := (fun x v => Host.reduce IntOp.andi x v reducesTo_S4x32768x128_S_d0_1_2 h_S_) main_v2 main_c
  let main_v4 : FVec F S4x65536x128 .f32 := Host.absf main_arg3
  let main_cst_0 : FVec F S_ .f32 := constant S_ .f32 0x7F800000#32
  let main_v5 : FVec F S4x65536x128 .f32 := broadcastInDim S4x65536x128 ![] bcast_S_S4x65536x128 main_cst_0
  let main_v6 : IVec S4x65536x128 1 := cmpf .olt main_v4 main_v5
  let main_c_1 : IVec S_ 1 := constantI S_ 1 1#1
  let main_v7 : IVec S_ 1 := (fun x v => Host.reduce IntOp.andi x v reducesTo_S4x65536x128_S_d0_1_2 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4x32768x128 : Shape := ⟨3, ![4, 32768, 128]⟩
abbrev S4x32768 : Shape := ⟨2, ![4, 32768]⟩
abbrev S4x65536 : Shape := ⟨2, ![4, 65536]⟩
abbrev S4x65536x128 : Shape := ⟨3, ![4, 65536, 128]⟩
abbrev S256x128 : Shape := ⟨2, ![256, 128]⟩
abbrev S128 : Shape := ⟨1, ![128]⟩
abbrev S4x32768x1 : Shape := ⟨3, ![4, 32768, 1]⟩
abbrev S_ : Shape := ⟨0, ![]⟩
abbrev S1 : Shape := ⟨1, ![1]⟩
abbrev S1x1x1 : Shape := ⟨3, ![1, 1, 1]⟩
abbrev S4 : Shape := ⟨1, ![4]⟩
abbrev S4x1 : Shape := ⟨2, ![4, 1]⟩
abbrev S4x65536x1 : Shape := ⟨3, ![4, 65536, 1]⟩
abbrev S4x65536x2 : Shape := ⟨3, ![4, 65536, 2]⟩
abbrev S128x128 : Shape := ⟨2, ![128, 128]⟩
abbrev S1x128 : Shape := ⟨2, ![1, 128]⟩
abbrev S262144x128 : Shape := ⟨2, ![262144, 128]⟩
abbrev S4096x128 : Shape := ⟨2, ![4096, 128]⟩

abbrev nBuf : Space → Nat
  | .hbm => 60
  | .vmem => 9
  | .smem => 0
  | _ => 0

abbrev bufTy : (tb : Table) → Fin (tcTables nBuf tb) → BufTy
  | .hbm, ⟨0, _⟩ => ⟨S4x32768x128, .f32⟩
  | .hbm, ⟨1, _⟩ => ⟨S4x32768, .i32⟩
  | .hbm, ⟨2, _⟩ => ⟨S4x65536, .i32⟩
  | .hbm, ⟨3, _⟩ => ⟨S4x65536x128, .f32⟩
  | .hbm, ⟨4, _⟩ => ⟨S256x128, .f32⟩
  | .hbm, ⟨5, _⟩ => ⟨S128, .f32⟩
  | .hbm, ⟨6, _⟩ => ⟨S4x32768x1, .i32⟩
  | .hbm, ⟨7, _⟩ => ⟨S_, .i32⟩
  | .hbm, ⟨8, _⟩ => ⟨S4x32768x1, .i32⟩
  | .hbm, ⟨9, _⟩ => ⟨S4x32768x1, .i1⟩
  | .hbm, ⟨10, _⟩ => ⟨S_, .i32⟩
  | .hbm, ⟨11, _⟩ => ⟨S4x32768x1, .i32⟩
  | .hbm, ⟨12, _⟩ => ⟨S4x32768x1, .i32⟩
  | .hbm, ⟨13, _⟩ => ⟨S4x32768x1, .i32⟩
  | .hbm, ⟨14, _⟩ => ⟨S1, .i32⟩
  | .hbm, ⟨15, _⟩ => ⟨S_, .i32⟩
  | .hbm, ⟨16, _⟩ => ⟨S4x32768x1, .i32⟩
  | .hbm, ⟨17, _⟩ => ⟨S4x32768x1, .i1⟩
  | .hbm, ⟨18, _⟩ => ⟨S1x1x1, .i32⟩
  | .hbm, ⟨19, _⟩ => ⟨S4x32768x1, .i32⟩
  | .hbm, ⟨20, _⟩ => ⟨S4x32768x1, .i1⟩
  | .hbm, ⟨21, _⟩ => ⟨S4x32768x1, .i1⟩
  | .hbm, ⟨22, _⟩ => ⟨S_, .i1⟩
  | .hbm, ⟨23, _⟩ => ⟨S4x32768, .i1⟩
  | .hbm, ⟨24, _⟩ => ⟨S4x32768x128, .f32⟩
  | .hbm, ⟨25, _⟩ => ⟨S4x32768x128, .i1⟩
  | .hbm, ⟨26, _⟩ => ⟨S_, .f32⟩
  | .hbm, ⟨27, _⟩ => ⟨S4x32768x128, .f32⟩
  | .hbm, ⟨28, _⟩ => ⟨S4x32768x128, .f32⟩
  | .hbm, ⟨29, _⟩ => ⟨S4x65536x128, .f32⟩
  | .hbm, ⟨30, _⟩ => ⟨S4, .i32⟩
  | .hbm, ⟨31, _⟩ => ⟨S4x1, .i32⟩
  | .hbm, ⟨32, _⟩ => ⟨S_, .f32⟩
  | .hbm, ⟨33, _⟩ => ⟨S4x65536x128, .f32⟩
  | .hbm, ⟨34, _⟩ => ⟨S_, .i32⟩
  | .hbm, ⟨35, _⟩ => ⟨S4x1, .i32⟩
  | .hbm, ⟨36, _⟩ => ⟨S4x1, .i1⟩
  | .hbm, ⟨37, _⟩ => ⟨S_, .i32⟩
  | .hbm, ⟨38, _⟩ => ⟨S4x1, .i32⟩
  | .hbm, ⟨39, _⟩ => ⟨S4x1, .i32⟩
  | .hbm, ⟨40, _⟩ => ⟨S4x1, .i32⟩
  | .hbm, ⟨41, _⟩ => ⟨S_, .i32⟩
  | .hbm, ⟨42, _⟩ => ⟨S4x65536, .i32⟩
  | .hbm, ⟨43, _⟩ => ⟨S4x65536, .i1⟩
  | .hbm, ⟨44, _⟩ => ⟨S_, .i32⟩
  | .hbm, ⟨45, _⟩ => ⟨S4x65536, .i32⟩
  | .hbm, ⟨46, _⟩ => ⟨S4x65536, .i32⟩
  | .hbm, ⟨47, _⟩ => ⟨S4x65536, .i32⟩
  | .hbm, ⟨48, _⟩ => ⟨S4x65536, .i32⟩
  | .hbm, ⟨49, _⟩ => ⟨S4x65536x1, .i32⟩
  | .hbm, ⟨50, _⟩ => ⟨S4x65536x1, .i32⟩
  | .hbm, ⟨51, _⟩ => ⟨S4x65536x2, .i32⟩
  | .hbm, ⟨52, _⟩ => ⟨S4x65536x128, .f32⟩
  | .hbm, ⟨53, _⟩ => ⟨S128x128, .f32⟩
  | .hbm, ⟨54, _⟩ => ⟨S128x128, .f32⟩
  | .hbm, ⟨55, _⟩ => ⟨S1x128, .f32⟩
  | .hbm, ⟨56, _⟩ => ⟨S262144x128, .f32⟩
  | .hbm, ⟨57, _⟩ => ⟨S262144x128, .f32⟩
  | .hbm, ⟨58, _⟩ => ⟨S262144x128, .f32⟩
  | .hbm, ⟨59, _⟩ => ⟨S4x65536x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4096x128, .f32⟩
  | .local _ .vmem, ⟨8, _⟩ => ⟨S4096x128, .f32⟩
  | _, _ => ⟨S4x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_v7 : Ref sig .tc := ⟨.hbm, 36, rfl⟩
abbrev main_c_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S4x32768_S4x32768x1_0_1 : S4x32768.BroadcastsInDim S4x32768x1 (![0, 1] : Fin 2 → Fin S4x32768x1.rank)
  bcast_S_S4x32768x1 : S_.BroadcastsInDim S4x32768x1 (![] : Fin 0 → Fin S4x32768x1.rank)
  bcast_S1_S1x1x1_2 : S1.BroadcastsInDim S1x1x1 (![2] : Fin 1 → Fin S1x1x1.rank)
  bcast_S1x1x1_S4x32768x1_0_1_2 : S1x1x1.BroadcastsInDim S4x32768x1 (![0, 1, 2] : Fin 3 → Fin S4x32768x1.rank)
  reducesTo_S4x32768x1_S4x32768_d2 : S4x32768x1.ReducesTo [2] S4x32768
  h_S_ : 0 < S_.numel
  bcast_S4x32768_S4x32768x128_0_1 : S4x32768.BroadcastsInDim S4x32768x128 (![0, 1] : Fin 2 → Fin S4x32768x128.rank)
  bcast_S_S4x32768x128 : S_.BroadcastsInDim S4x32768x128 (![] : Fin 0 → Fin S4x32768x128.rank)
  concatenates_S4x32768x128_S4x32768x128_S4x65536x128_d1 : Shape.Concatenates [S4x32768x128, S4x32768x128] S4x65536x128 1
  bcast_S4_S4x1_0 : S4.BroadcastsInDim S4x1 (![0] : Fin 1 → Fin S4x1.rank)
  bcast_S_S4x65536x128 : S_.BroadcastsInDim S4x65536x128 (![] : Fin 0 → Fin S4x65536x128.rank)
  bcast_S_S4x1 : S_.BroadcastsInDim S4x1 (![] : Fin 0 → Fin S4x1.rank)
  bcast_S_S4x65536 : S_.BroadcastsInDim S4x65536 (![] : Fin 0 → Fin S4x65536.rank)
  bcast_S4x1_S4x65536_0_1 : S4x1.BroadcastsInDim S4x65536 (![0, 1] : Fin 2 → Fin S4x65536.rank)
  bcast_S4x65536_S4x65536x1_0_1 : S4x65536.BroadcastsInDim S4x65536x1 (![0, 1] : Fin 2 → Fin S4x65536x1.rank)
  concatenates_S4x65536x1_S4x65536x1_S4x65536x2_d2 : Shape.Concatenates [S4x65536x1, S4x65536x1] S4x65536x2 2
  slices_S256x128_S128x128_0_0 : S256x128.Slices ![0, 0] S128x128
  slices_S256x128_S128x128_128_0 : S256x128.Slices ![128, 0] S128x128
  shapeCasts_S128_S1x128 : S128.ShapeCasts S1x128
  shapeCasts_S4x65536x128_S262144x128 : S4x65536x128.ShapeCasts S262144x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S262144x128_S4x65536x128 : S262144x128.ShapeCasts S4x65536x128
  gather_S4x32768x128_S4x32768x1_S4x32768x128_2_1_0_0_1_2_11128_wf : GatherDims.WF S4x32768x128 S4x32768x1 S4x32768x128 [2] [1] [0] [1] [0] 2 ![1, 1, 128]
  scatter_S4x65536x128_S4x65536x2_S4x65536x128_2_01_01_2_wf : ScatterDims.WF S4x65536x128 S4x65536x2 S4x65536x128 [2] [0, 1] [0, 1] 2
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S262144x128.size a
  hwx0_5 : ∀ i : grid0.Coords, EltTy.bits .f32 = 32 ∨ (Rect.block (s := S262144x128) S4096x128.size (cc0_transform_5 i) (hinb0_5 i)).WholeWords (EltTy.packing .f32)

variable [Facts₀]

def gather_S4x32768x128_S4x32768x1_S4x32768x128_2_1_0_0_1_2_11128 : GatherDims S4x32768x128 S4x32768x1 S4x32768x128 where
  offsetDims := [2]
  collapsedSliceDims := [1]
  operandBatchingDims := [0]
  startIndicesBatchingDims := [0]
  startIndexMap := [1]
  indexVectorDim := 2
  sliceSizes := ![1, 1, 128]
  wf := gather_S4x32768x128_S4x32768x1_S4x32768x128_2_1_0_0_1_2_11128_wf
def scatter_S4x65536x128_S4x65536x2_S4x65536x128_2_01_01_2 : ScatterDims S4x65536x128 S4x65536x2 S4x65536x128 where
  updateWindowDims := [2]
  insertedWindowDims := [0, 1]
  scatterDimsToOperandDims := [0, 1]
  indexVectorDim := 2
  wf := scatter_S4x65536x128_S4x65536x2_S4x65536x128_2_01_01_2_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v24) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x32768x128 : Shape := ⟨3, ![4, 32768, 128]⟩
abbrev S4x32768 : Shape := ⟨2, ![4, 32768]⟩
abbrev S4x65536 : Shape := ⟨2, ![4, 65536]⟩
abbrev S4x65536x128 : Shape := ⟨3, ![4, 65536, 128]⟩
abbrev S256x128 : Shape := ⟨2, ![256, 128]⟩
abbrev S128 : Shape := ⟨1, ![128]⟩
abbrev S4x32768x1 : Shape := ⟨3, ![4, 32768, 1]⟩
abbrev S_ : Shape := ⟨0, ![]⟩
abbrev S1 : Shape := ⟨1, ![1]⟩
abbrev S1x1x1 : Shape := ⟨3, ![1, 1, 1]⟩
abbrev S4 : Shape := ⟨1, ![4]⟩
abbrev S4x1 : Shape := ⟨2, ![4, 1]⟩
abbrev S4x65536x1 : Shape := ⟨3, ![4, 65536, 1]⟩
abbrev S4x65536x2 : Shape := ⟨3, ![4, 65536, 2]⟩
abbrev S4x65536x256 : Shape := ⟨3, ![4, 65536, 256]⟩
abbrev S1x1x128 : Shape := ⟨3, ![1, 1, 128]⟩

abbrev nBuf : Space → Nat
  | .hbm => 61
  | .vmem => 0
  | .smem => 0
  | _ => 0

abbrev bufTy : (tb : Table) → Fin (tcTables nBuf tb) → BufTy
  | .hbm, ⟨0, _⟩ => ⟨S4x32768x128, .f32⟩
  | .hbm, ⟨1, _⟩ => ⟨S4x32768, .i32⟩
  | .hbm, ⟨2, _⟩ => ⟨S4x65536, .i32⟩
  | .hbm, ⟨3, _⟩ => ⟨S4x65536x128, .f32⟩
  | .hbm, ⟨4, _⟩ => ⟨S256x128, .f32⟩
  | .hbm, ⟨5, _⟩ => ⟨S128, .f32⟩
  | .hbm, ⟨6, _⟩ => ⟨S4x32768x1, .i32⟩
  | .hbm, ⟨7, _⟩ => ⟨S_, .i32⟩
  | .hbm, ⟨8, _⟩ => ⟨S4x32768x1, .i32⟩
  | .hbm, ⟨9, _⟩ => ⟨S4x32768x1, .i1⟩
  | .hbm, ⟨10, _⟩ => ⟨S_, .i32⟩
  | .hbm, ⟨11, _⟩ => ⟨S4x32768x1, .i32⟩
  | .hbm, ⟨12, _⟩ => ⟨S4x32768x1, .i32⟩
  | .hbm, ⟨13, _⟩ => ⟨S4x32768x1, .i32⟩
  | .hbm, ⟨14, _⟩ => ⟨S1, .i32⟩
  | .hbm, ⟨15, _⟩ => ⟨S_, .i32⟩
  | .hbm, ⟨16, _⟩ => ⟨S4x32768x1, .i32⟩
  | .hbm, ⟨17, _⟩ => ⟨S4x32768x1, .i1⟩
  | .hbm, ⟨18, _⟩ => ⟨S1x1x1, .i32⟩
  | .hbm, ⟨19, _⟩ => ⟨S4x32768x1, .i32⟩
  | .hbm, ⟨20, _⟩ => ⟨S4x32768x1, .i1⟩
  | .hbm, ⟨21, _⟩ => ⟨S4x32768x1, .i1⟩
  | .hbm, ⟨22, _⟩ => ⟨S_, .i1⟩
  | .hbm, ⟨23, _⟩ => ⟨S4x32768, .i1⟩
  | .hbm, ⟨24, _⟩ => ⟨S4x32768x128, .f32⟩
  | .hbm, ⟨25, _⟩ => ⟨S4x32768x128, .i1⟩
  | .hbm, ⟨26, _⟩ => ⟨S_, .f32⟩
  | .hbm, ⟨27, _⟩ => ⟨S4x32768x128, .f32⟩
  | .hbm, ⟨28, _⟩ => ⟨S4x32768x128, .f32⟩
  | .hbm, ⟨29, _⟩ => ⟨S4x65536x128, .f32⟩
  | .hbm, ⟨30, _⟩ => ⟨S4, .i32⟩
  | .hbm, ⟨31, _⟩ => ⟨S4x1, .i32⟩
  | .hbm, ⟨32, _⟩ => ⟨S_, .f32⟩
  | .hbm, ⟨33, _⟩ => ⟨S4x65536x128, .f32⟩
  | .hbm, ⟨34, _⟩ => ⟨S_, .i32⟩
  | .hbm, ⟨35, _⟩ => ⟨S4x1, .i32⟩
  | .hbm, ⟨36, _⟩ => ⟨S4x1, .i1⟩
  | .hbm, ⟨37, _⟩ => ⟨S_, .i32⟩
  | .hbm, ⟨38, _⟩ => ⟨S4x1, .i32⟩
  | .hbm, ⟨39, _⟩ => ⟨S4x1, .i32⟩
  | .hbm, ⟨40, _⟩ => ⟨S4x1, .i32⟩
  | .hbm, ⟨41, _⟩ => ⟨S_, .i32⟩
  | .hbm, ⟨42, _⟩ => ⟨S4x65536, .i32⟩
  | .hbm, ⟨43, _⟩ => ⟨S4x65536, .i1⟩
  | .hbm, ⟨44, _⟩ => ⟨S_, .i32⟩
  | .hbm, ⟨45, _⟩ => ⟨S4x65536, .i32⟩
  | .hbm, ⟨46, _⟩ => ⟨S4x65536, .i32⟩
  | .hbm, ⟨47, _⟩ => ⟨S4x65536, .i32⟩
  | .hbm, ⟨48, _⟩ => ⟨S4x65536, .i32⟩
  | .hbm, ⟨49, _⟩ => ⟨S4x65536x1, .i32⟩
  | .hbm, ⟨50, _⟩ => ⟨S4x65536x1, .i32⟩
  | .hbm, ⟨51, _⟩ => ⟨S4x65536x2, .i32⟩
  | .hbm, ⟨52, _⟩ => ⟨S4x65536x128, .f32⟩
  | .hbm, ⟨53, _⟩ => ⟨S4x65536x256, .f32⟩
  | .hbm, ⟨54, _⟩ => ⟨S4x65536x128, .f32⟩
  | .hbm, ⟨55, _⟩ => ⟨S1x1x128, .f32⟩
  | .hbm, ⟨56, _⟩ => ⟨S4x65536x128, .f32⟩
  | .hbm, ⟨57, _⟩ => ⟨S4x65536x128, .f32⟩
  | .hbm, ⟨58, _⟩ => ⟨S_, .f32⟩
  | .hbm, ⟨59, _⟩ => ⟨S4x65536x128, .f32⟩
  | .hbm, ⟨60, _⟩ => ⟨S4x65536x128, .f32⟩
  | _, _ => ⟨S4x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_v7 : Ref sig .tc := ⟨.hbm, 36, rfl⟩
abbrev main_c_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_call1_cst : Ref sig .tc := ⟨.hbm, 58, rfl⟩
abbrev main_call1_v0 : Ref sig .tc := ⟨.hbm, 59, rfl⟩
abbrev main_v26 : Ref sig .tc := ⟨.hbm, 60, rfl⟩

abbrev nD : Nat := 1
abbrev τ : Topo := Topo.v7x

variable {F : FTy → Type} [FloatOps F]

class Facts₀ : Prop where
  bcast_S4x32768_S4x32768x1_0_1 : S4x32768.BroadcastsInDim S4x32768x1 (![0, 1] : Fin 2 → Fin S4x32768x1.rank)
  bcast_S_S4x32768x1 : S_.BroadcastsInDim S4x32768x1 (![] : Fin 0 → Fin S4x32768x1.rank)
  bcast_S1_S1x1x1_2 : S1.BroadcastsInDim S1x1x1 (![2] : Fin 1 → Fin S1x1x1.rank)
  bcast_S1x1x1_S4x32768x1_0_1_2 : S1x1x1.BroadcastsInDim S4x32768x1 (![0, 1, 2] : Fin 3 → Fin S4x32768x1.rank)
  reducesTo_S4x32768x1_S4x32768_d2 : S4x32768x1.ReducesTo [2] S4x32768
  h_S_ : 0 < S_.numel
  bcast_S4x32768_S4x32768x128_0_1 : S4x32768.BroadcastsInDim S4x32768x128 (![0, 1] : Fin 2 → Fin S4x32768x128.rank)
  bcast_S_S4x32768x128 : S_.BroadcastsInDim S4x32768x128 (![] : Fin 0 → Fin S4x32768x128.rank)
  concatenates_S4x32768x128_S4x32768x128_S4x65536x128_d1 : Shape.Concatenates [S4x32768x128, S4x32768x128] S4x65536x128 1
  bcast_S4_S4x1_0 : S4.BroadcastsInDim S4x1 (![0] : Fin 1 → Fin S4x1.rank)
  bcast_S_S4x65536x128 : S_.BroadcastsInDim S4x65536x128 (![] : Fin 0 → Fin S4x65536x128.rank)
  bcast_S_S4x1 : S_.BroadcastsInDim S4x1 (![] : Fin 0 → Fin S4x1.rank)
  bcast_S_S4x65536 : S_.BroadcastsInDim S4x65536 (![] : Fin 0 → Fin S4x65536.rank)
  bcast_S4x1_S4x65536_0_1 : S4x1.BroadcastsInDim S4x65536 (![0, 1] : Fin 2 → Fin S4x65536.rank)
  bcast_S4x65536_S4x65536x1_0_1 : S4x65536.BroadcastsInDim S4x65536x1 (![0, 1] : Fin 2 → Fin S4x65536x1.rank)
  concatenates_S4x65536x1_S4x65536x1_S4x65536x2_d2 : Shape.Concatenates [S4x65536x1, S4x65536x1] S4x65536x2 2
  concatenates_S4x65536x128_S4x65536x128_S4x65536x256_d2 : Shape.Concatenates [S4x65536x128, S4x65536x128] S4x65536x256 2
  bcast_S128_S1x1x128_2 : S128.BroadcastsInDim S1x1x128 (![2] : Fin 1 → Fin S1x1x128.rank)
  bcast_S1x1x128_S4x65536x128_0_1_2 : S1x1x128.BroadcastsInDim S4x65536x128 (![0, 1, 2] : Fin 3 → Fin S4x65536x128.rank)
  gather_S4x32768x128_S4x32768x1_S4x32768x128_2_1_0_0_1_2_11128_wf : GatherDims.WF S4x32768x128 S4x32768x1 S4x32768x128 [2] [1] [0] [1] [0] 2 ![1, 1, 128]
  scatter_S4x65536x128_S4x65536x2_S4x65536x128_2_01_01_2_wf : ScatterDims.WF S4x65536x128 S4x65536x2 S4x65536x128 [2] [0, 1] [0, 1] 2
  dot_S4x65536x256_S256x128_S4x65536x128_2_0_01_1_n_n_wf : DotDims.WF S4x65536x256 S256x128 S4x65536x128 [2] [0] [0, 1] [1] [] []

variable [Facts₀]

def gather_S4x32768x128_S4x32768x1_S4x32768x128_2_1_0_0_1_2_11128 : GatherDims S4x32768x128 S4x32768x1 S4x32768x128 where
  offsetDims := [2]
  collapsedSliceDims := [1]
  operandBatchingDims := [0]
  startIndicesBatchingDims := [0]
  startIndexMap := [1]
  indexVectorDim := 2
  sliceSizes := ![1, 1, 128]
  wf := gather_S4x32768x128_S4x32768x1_S4x32768x128_2_1_0_0_1_2_11128_wf
def scatter_S4x65536x128_S4x65536x2_S4x65536x128_2_01_01_2 : ScatterDims S4x65536x128 S4x65536x2 S4x65536x128 where
  updateWindowDims := [2]
  insertedWindowDims := [0, 1]
  scatterDimsToOperandDims := [0, 1]
  indexVectorDim := 2
  wf := scatter_S4x65536x128_S4x65536x2_S4x65536x128_2_01_01_2_wf
def dot_S4x65536x256_S256x128_S4x65536x128_2_0_01_1_n_n : DotDims S4x65536x256 S256x128 S4x65536x128 where
  lhsContracting := [2]
  rhsContracting := [0]
  lhsNonContracting := [0, 1]
  rhsNonContracting := [1]
  lhsBatch := []
  rhsBatch := []
  wf := dot_S4x65536x256_S256x128_S4x65536x128_2_0_01_1_n_n_wf

class Facts : Prop extends Facts₀ where

variable [Facts]
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.KernelPayload.lean ====
/-
  What the kernel's body stores for one block, read at an entry.

  The body loads a block of 4096 rows of `res`, the matching 4096 rows of `scat`, the two 128 × 128 halves of the
  weight matrix and the bias row; it multiplies each block of rows by its half of the weights (into a zero
  accumulator), adds the two products, adds the bias row to every row, and takes the maximum with zero. The
  roundings to the narrower float format on the way into the products are the identity on the extended reals, and a
  product into a zero accumulator is the plain sum over the contracted index. So entry `(p, q)` of the stored block is
  `max ((∑ k, x0[p, k] · x2[k, q] + ∑ k, x1[p, k] · x3[k, q]) + x4[0, q]) 0`.
-/
import proofs.«114572_j34608846471731_1_alg».proof.Proof.Gen.KernelIdeal.Skeleton
import proofs.«114572_j34608846471731_1_alg».proof.Proof.LibMatmulNN
import Idealize.ShloMosaic.Lib.ValueLayout
import Idealize.ShloMosaic.Lib.Pipeline.Value

noncomputable section

open scoped BigOperators

namespace Cert.UpsampleMlp

open Idealize.ShloMosaic Idealize.ShloMosaic.ValueIdx Cert.KernelIdeal Cert.KernelIdeal.Gen

/-- One product of the body: a block of rows, rounded, times a half of the weights, rounded, into zero. -/
theorem product_apply (x : FVec Ideal S4096x128 .f32) (w : FVec Ideal S128x128 .f32) (p : Fin 4096) (q : Fin 128) :
    matmul (F := Ideal) dot_S4096x128_S128x128_S4096x128_1_0_0_1_n_n none (truncf .bf16 x bitsLt_bf16_f32)
        (truncf .bf16 w bitsLt_bf16_f32) (constant (F := Ideal) S4096x128 .f32 0x00000000#32) (ix2 p q)
      = ∑ k : Fin 128, x (ix2 p k) * w (ix2 k q) :=
  LibMatmulNN.matmul_zero_apply 4096 128 128 none (truncf .bf16 x bitsLt_bf16_f32) (truncf .bf16 w bitsLt_bf16_f32) p q

/-- Entry `(p, q)` of the block the body stores. -/
theorem payload_apply (x0 x1 : Vec Ideal S4096x128 .f32) (x2 x3 : Vec Ideal S128x128 .f32) (x4 : Vec Ideal S1x128 .f32)
    (p : Fin 4096) (q : Fin 128) :
    k0_pay1 (F := Ideal) x0 x1 x2 x3 x4 (ix2 p q)
      = max ((∑ k : Fin 128, x0 (ix2 p k) * x2 (ix2 k q) + ∑ k : Fin 128, x1 (ix2 p k) * x3 (ix2 k q))
          + x4 (ix2 (0 : Fin 1) q)) (Ideal.ofBits .f32 0x00000000#32) := by
  unfold k0_pay1
  simp only [shapeCast_self]
  rw [maximumf_apply, addf_apply, addf_apply, broadcast_apply, broadcastTo_1b_ab_apply, product_apply, product_apply]
  rfl

end Cert.UpsampleMlp

end
-- ==== Proof.MlpSpec.lean ====
/-
  The pointwise two-input layer, as ONE function of its argument arrays.

  For a batch index `b`, a point `n` and an output unit `u`, the layer's value is
  `max ((∑ k < 128, res[b, n, k] · W[k, u] + ∑ k < 128, scat[b, n, k] · W[128 + k, u]) + bias[u]) 0`
  on the extended reals: the weight matrix `W` has 256 rows, its first 128 rows meet the rows of `res`,
  its last 128 rows the rows of `scat`. Multiplying the 256-long row that joins a row of `res` and a row of `scat`
  by `W` is the same number, because a sum over 256 indices is the sum over the first 128 plus the sum over the
  last 128 — commutativity and associativity of addition only, so nothing needs to be finite.
-/
import Idealize.ShloMosaic.PureOps.Ideal.Laws
import Idealize.ShloMosaic.Lib.ValueIdx

noncomputable section

open scoped BigOperators

namespace Cert.UpsampleMlp

open Idealize.ShloMosaic Idealize.ShloMosaic.ValueIdx

/-- Row `k` of the upper half of a 256-row matrix. -/
abbrev lo (k : Fin 128) : Fin 256 := ⟨k.val, Nat.lt_of_lt_of_le k.isLt (by decide)⟩
/-- Row `128 + k`, in the lower half. -/
abbrev hi (k : Fin 128) : Fin 256 := ⟨128 + k.val, by have := k.isLt; omega⟩

/-- The layer over `[4, 65536, 128]` rows. -/
def mlp (res scat : (⟨3, ![4, 65536, 128]⟩ : Shape).Idx → EReal) (W : (⟨2, ![256, 128]⟩ : Shape).Idx → EReal)
    (bias : (⟨1, ![128]⟩ : Shape).Idx → EReal) : (⟨3, ![4, 65536, 128]⟩ : Shape).Idx → EReal := fun i =>
  max ((∑ k : Fin 128, res (ix3 (i 0) (i 1) k) * W (ix2 (lo k) (i 2))
        + ∑ k : Fin 128, scat (ix3 (i 0) (i 1) k) * W (ix2 (hi k) (i 2))) + bias (ix1 (i 2)))
    (Ideal.ofBits .f32 0x00000000#32)

/-- The same layer over the `262144 = 4 · 65536` rows laid out one after the other, with the two halves of the
    weight matrix and the bias row given separately. -/
def mlpFlat (res scat : (⟨2, ![262144, 128]⟩ : Shape).Idx → EReal) (Wr Ws : (⟨2, ![128, 128]⟩ : Shape).Idx → EReal)
    (bias : (⟨2, ![1, 128]⟩ : Shape).Idx → EReal) : (⟨2, ![262144, 128]⟩ : Shape).Idx → EReal := fun j =>
  max ((∑ k : Fin 128, res (ix2 (j 0) k) * Wr (ix2 k (j 1))
        + ∑ k : Fin 128, scat (ix2 (j 0) k) * Ws (ix2 k (j 1))) + bias (ix2 (0 : Fin 1) (j 1)))
    (Ideal.ofBits .f32 0x00000000#32)

/-- The layer over the flat rows, at the entry in row `r` and column `u`. -/
theorem mlpFlat_at (res scat : (⟨2, ![262144, 128]⟩ : Shape).Idx → EReal) (Wr Ws : (⟨2, ![128, 128]⟩ : Shape).Idx → EReal)
    (bias : (⟨2, ![1, 128]⟩ : Shape).Idx → EReal) (i : (⟨2, ![262144, 128]⟩ : Shape).Idx) (r : Fin 262144) (u : Fin 128)
    (h0 : (i 0).val = r.val) (h1 : (i 1).val = u.val) :
    mlpFlat res scat Wr Ws bias i
      = max ((∑ k : Fin 128, res (ix2 r k) * Wr (ix2 k u) + ∑ k : Fin 128, scat (ix2 r k) * Ws (ix2 k u))
          + bias (ix2 (0 : Fin 1) u)) (Ideal.ofBits .f32 0x00000000#32) := by
  obtain rfl : i = ix2 r u := funext fun a => Fin.ext (by
    match a with
    | ⟨0, _⟩ => exact h0
    | ⟨1, _⟩ => exact h1)
  rfl

/-- A sum over 256 indices is the sum over the first 128 plus the sum over the last 128. -/
theorem sum_halves (f : Fin 256 → EReal) :
    ∑ c : Fin 256, f c = ∑ k : Fin 128, f (lo k) + ∑ k : Fin 128, f (hi k) :=
  Fin.sum_univ_add (a := 128) (b := 128) f

end Cert.UpsampleMlp

end
-- ==== Proof.KernelValue.lean ====
/-
  The kernel's output array after the run, as one function of the arrays the kernel's region is launched on.

  The output has 262144 rows of 128 entries; grid point `t` (of 64) works on rows `4096 t … 4096 t + 4095`: it is
  handed those rows of the two row arrays, the whole of the two weight halves and of the bias row, and writes back
  those rows of the output. What it writes is the pointwise layer of its rows, and the 64 row blocks tile the
  output, so after the run the output array is the layer of the whole row arrays.
-/
import proofs.«114572_j34608846471731_1_alg».proof.Proof.Gen.KernelIdeal.Frame
import proofs.«114572_j34608846471731_1_alg».proof.Proof.KernelPayload
import proofs.«114572_j34608846471731_1_alg».proof.Proof.MlpSpec
import Idealize.ShloMosaic.Lib.Pipeline.Value

noncomputable section

open scoped BigOperators

namespace Cert.UpsampleMlp

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- Where each window's block sits at grid point `t`: the two row windows and the output window at row block `t`,
    the weight halves and the bias row at their only block. Decided over the 64 points. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first row window's block at point `t` is rows `4096 t …` of its array. -/
theorem rows0_apply (c : Dev nD) (t : Fin cfg0.N) (x : S4096x128.Idx) (k : S262144x128.Idx)
    (hk0 : (k 0).val = t.val * 4096 + (x 0).val) (hk1 : (k 1).val = (x 1).val) :
    (iblk m c 0 t : Vec Ideal S4096x128 .f32) x = (V m c main_v24 : S262144x128.Idx → EReal) k := by
  obtain ⟨e0, e1, -⟩ := block_positions t
  unfold iblk
  rw [View.read_apply]
  show V m c main_v24 _ = V m c main_v24 _
  refine congrArg (V m c main_v24) (funext fun a => Fin.ext ?_)
  match a with
  | ⟨0, _⟩ => show win0_0.index t (0 : Fin 2) * 4096 + 1 * (x 0).val = (k 0).val; rw [e0, hk0]; omega
  | ⟨1, _⟩ => show win0_0.index t (1 : Fin 2) * 128 + 1 * (x 1).val = (k 1).val; rw [e1, hk1]; omega

/-- The second row window's block at point `t` is rows `4096 t …` of its array. -/
theorem rows1_apply (c : Dev nD) (t : Fin cfg0.N) (x : S4096x128.Idx) (k : S262144x128.Idx)
    (hk0 : (k 0).val = t.val * 4096 + (x 0).val) (hk1 : (k 1).val = (x 1).val) :
    (iblk m c 1 t : Vec Ideal S4096x128 .f32) x = (V m c main_v25 : S262144x128.Idx → EReal) k := by
  obtain ⟨-, -, e0, e1, -⟩ := block_positions t
  unfold iblk
  rw [View.read_apply]
  show V m c main_v25 _ = V m c main_v25 _
  refine congrArg (V m c main_v25) (funext fun a => Fin.ext ?_)
  match a with
  | ⟨0, _⟩ => show win0_1.index t (0 : Fin 2) * 4096 + 1 * (x 0).val = (k 0).val; rw [e0, hk0]; omega
  | ⟨1, _⟩ => show win0_1.index t (1 : Fin 2) * 128 + 1 * (x 1).val = (k 1).val; rw [e1, hk1]; omega

/-- The upper weight half's block at every point is the whole array. -/
theorem weights2_apply (c : Dev nD) (t : Fin cfg0.N) (x : S128x128.Idx) :
    (iblk m c 2 t : Vec Ideal S128x128 .f32) x = (V m c main_v21 : S128x128.Idx → EReal) x := by
  obtain ⟨-, -, -, -, e0, e1, -⟩ := block_positions t
  unfold iblk
  rw [View.read_apply]
  show V m c main_v21 _ = V m c main_v21 _
  refine congrArg (V m c main_v21) (funext fun a => Fin.ext ?_)
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- The lower weight half's block at every point is the whole array. -/
theorem weights3_apply (c : Dev nD) (t : Fin cfg0.N) (x : S128x128.Idx) :
    (iblk m c 3 t : Vec Ideal S128x128 .f32) x = (V m c main_v22 : S128x128.Idx → EReal) x := by
  obtain ⟨-, -, -, -, -, -, e0, e1, -⟩ := block_positions t
  unfold iblk
  rw [View.read_apply]
  show V m c main_v22 _ = V m c main_v22 _
  refine congrArg (V m c main_v22) (funext fun a => Fin.ext ?_)
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- The bias row's block at every point is the whole row. -/
theorem bias4_apply (c : Dev nD) (t : Fin cfg0.N) (x : S1x128.Idx) :
    (iblk m c 4 t : Vec Ideal S1x128 .f32) x = (V m c main_v23 : S1x128.Idx → EReal) x := by
  obtain ⟨-, -, -, -, -, -, -, -, e0, e1, -⟩ := block_positions t
  unfold iblk
  rw [View.read_apply]
  show V m c main_v23 _ = V m c main_v23 _
  refine congrArg (V m c main_v23) (funext fun a => Fin.ext ?_)
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-- Entry `y = (p, q)` of the block the body stores, for any blocks it is handed. -/
theorem payload_at (x0 x1 : Vec Ideal S4096x128 .f32) (x2 x3 : Vec Ideal S128x128 .f32) (x4 : Vec Ideal S1x128 .f32)
    (y : S4096x128.Idx) (p : Fin 4096) (q : Fin 128) (h0 : (y 0).val = p.val) (h1 : (y 1).val = q.val) :
    k0_pay1 (F := Ideal) x0 x1 x2 x3 x4 y
      = max ((∑ k : Fin 128, x0 (ix2 p k) * x2 (ix2 k q) + ∑ k : Fin 128, x1 (ix2 p k) * x3 (ix2 k q))
          + x4 (ix2 (0 : Fin 1) q)) (Ideal.ofBits .f32 0x00000000#32) := by
  obtain rfl : y = ix2 p q := funext fun a => Fin.ext (by
    match a with
    | ⟨0, _⟩ => exact h0
    | ⟨1, _⟩ => exact h1)
  exact payload_apply x0 x1 x2 x3 x4 p q

/-- The output array as the layer of the arrays the region is launched on. -/
abbrev outFlat (c : Dev nD) : S262144x128.Idx → EReal :=
  mlpFlat (V m c main_v24) (V m c main_v25) (V m c main_v21) (V m c main_v22) (V m c main_v23)

/-- What grid point `t` writes back is rows `4096 t …` of the layer of the whole arrays. -/
theorem flushed_eq (c : Dev nD) (t : Fin cfg0.N) :
    (dats m 0 c).flushed 5 t = ((cfg0.win 5).blk t).view.read (Elt Ideal) (outFlat m c) := by
  show (cfg0.win 5).cut (grid0.coords t) ((dats m 0 c).after 5 t) = _
  rw [after0_5]
  unfold out0_5
  rw [View.canon_unit_zero zero_offsets]
  simp only [View.ld_unit_zero (S := S4096x128) zero_offsets, View.ld_unit_zero (S := S128x128) zero_offsets,
    View.ld_unit_zero (S := S1x128) zero_offsets]
  obtain ⟨-, -, -, -, -, -, -, -, -, -, e0, e1⟩ := block_positions t
  have hN : cfg0.N = 64 := N_0
  have ht : t.val < 64 := hN ▸ t.isLt
  funext j
  have hj0 : (j 0).val < 4096 := (j 0).isLt
  have hj1 : (j 1).val < 128 := (j 1).isLt
  show k0_pay1 (F := Ideal) (iblk m c 0 t) (iblk m c 1 t) (iblk m c 2 t) (iblk m c 3 t) (iblk m c 4 t) j
    = outFlat m c (((cfg0.win 5).blk t).view.emb j)
  refine (payload_at _ _ _ _ _ j ⟨(j 0).val, hj0⟩ ⟨(j 1).val, hj1⟩ rfl rfl).trans ?_
  refine Eq.trans ?_ (mlpFlat_at _ _ _ _ _ _ ⟨t.val * 4096 + (j 0).val, by omega⟩ ⟨(j 1).val, hj1⟩ ?_ ?_).symm
  · refine congrArg₂ max (congrArg₂ (· + ·) (congrArg₂ (· + ·) (Finset.sum_congr rfl fun k _ => ?_)
      (Finset.sum_congr rfl fun k _ => ?_)) ?_) rfl
    · exact congrArg₂ (· * ·) (rows0_apply m c t _ _ rfl rfl) (weights2_apply m c t _)
    · exact congrArg₂ (· * ·) (rows1_apply m c t _ _ rfl rfl) (weights3_apply m c t _)
    · exact bias4_apply m c t _
  · show win0_5.index t (0 : Fin 2) * 4096 + 1 * (j 0).val = t.val * 4096 + (j 0).val
    rw [e0]; omega
  · show win0_5.index t (1 : Fin 2) * 128 + 1 * (j 1).val = (j 1).val
    rw [e1]; omega

/-- An index of the output array is in point `t`'s block iff each coordinate is in the block's range. -/
theorem mem_block (t : Fin cfg0.N) (i : S262144x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v26).slice (win0_5.rect t)).set ↔ _
  rw [View.set_slice_whole, Rect.mem_set_unit]
  exact Iff.rfl

/-- Row `r` of the output is written back by point `r / 4096`: the 64 row blocks tile the array. -/
theorem covered (i : S262144x128.Idx) :
    ∃ t : Fin cfg0.N, (cfg0.win 5).flush t = true ∧ i ∈ ((cfg0.win 5).blk t).view.set := by
  have hi0 : (i 0).val < 262144 := (i 0).isLt
  have hi1 : (i 1).val < 128 := (i 1).isLt
  have hN : cfg0.N = 64 := N_0
  have hlt : (i 0).val / 4096 < cfg0.N := by rw [hN]; omega
  obtain ⟨-, -, -, -, -, -, -, -, -, -, e0, e1⟩ := block_positions ⟨(i 0).val / 4096, hlt⟩
  refine ⟨⟨(i 0).val / 4096, hlt⟩, flush0_5 _, ?_⟩
  rw [mem_block]
  intro a
  match a with
  | ⟨0, _⟩ =>
    show win0_5.index ⟨(i 0).val / 4096, hlt⟩ (0 : Fin 2) * 4096 ≤ (i 0).val
      ∧ (i 0).val < win0_5.index ⟨(i 0).val / 4096, hlt⟩ (0 : Fin 2) * 4096 + 4096
    rw [e0]
    show (i 0).val / 4096 * 4096 ≤ (i 0).val ∧ (i 0).val < (i 0).val / 4096 * 4096 + 4096
    omega
  | ⟨1, _⟩ =>
    show win0_5.index ⟨(i 0).val / 4096, hlt⟩ (1 : Fin 2) * 128 ≤ (i 1).val
      ∧ (i 1).val < win0_5.index ⟨(i 0).val / 4096, hlt⟩ (1 : Fin 2) * 128 + 128
    rw [e1]
    omega

/-- The output array after the run is the layer of the arrays the region is launched on. -/
theorem final_out (c : Dev nD) : (dats m 0 c).arrAt 5 cfg0.N = outFlat m c :=
  (dats m 0 c).arrAt_eq_of_cover 5 (outFlat m c) (fun t _ => flushed_eq m c t) (covered)

end Cert.UpsampleMlp

end
-- ==== Proof.KernelRun.lean ====
/-
  The kernel program's run, read: its result array and its arguments after the run.

  After the region the program views the 262144 × 128 output as 4 × 65536 × 128, row `65536 b + n` becoming `(b, n)`.
  So the result is that view of the layer of the arrays the region is launched on; no line of the program writes
  an argument.
-/
import proofs.«114572_j34608846471731_1_alg».proof.Proof.KernelValue
import Idealize.ShloMosaic.Lib.StableHlo.Run

noncomputable section

namespace Cert.UpsampleMlp

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- What the line after the region leaves in the result buffer: the output array viewed as `[4, 65536, 128]`. -/
theorem tail_result (c : Dev nD) :
    Pipeline.afterTail₀ cfgs (dats m) 0 (V0 m) [hostOps1] c main_v27
      = shapeCast S4x65536x128 (outFlat m c) shapeCasts_S262144x128_S4x65536x128 := by
  have e : Pipeline.withArrays (cfgs 0).spec c (V0 m c) (fun w => (dats m 0 c).arrAt w (cfgs 0).N)
      (Proc.tc.devRef main_v26) = outFlat m c :=
    (Pipeline.withArrays_arr spec0 launch0.win.arr_inj c _ _ 5).trans (final_out m c)
  unfold Pipeline.afterTail₀
  show StableHlo.after hostOps1 _ (Proc.devRef .tc main_v27) = _
  after_results
  rw [e]
  rfl

/-- The run of the kernel program: the result at the viewed layer, every argument as launched. -/
theorem run : θ_run defs (onTc (τ := τ) (main (F := Ideal))) ⟨m, fun _ => 0, ρ⟩ fun r => ∀ c : Dev nD,
      r.2.mem ((c.tc : Thread nD τ).loc main_v27)
        = shapeCast S4x65536x128 (outFlat m c) shapeCasts_S262144x128_S4x65536x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v27 (Pipeline.mem_restRefs_of main_v27 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.UpsampleMlp

end
-- ==== Proof.LibTypedRef.lean ====
/-
  A typed reference pairs a buffer with the contents type its values have; contents are carried to the buffer's own
  type and back along the equation between the two types.
-/
import Idealize.ShloMosaic.Lib.StableHlo

namespace Idealize.ShloMosaic.StableHlo.TRef

/-- Carrying contents of the stated type to the buffer's own type and back changes nothing: both transports are along
    one equation of types, in opposite directions. -/
theorem ofBuf_toBuf {sig : RefSig} {Val : EltTy → Type} {T : BufTy} (x : TRef sig T) (v : T.Contents Val) :
    x.ofBuf (x.toBuf v) = v := by
  obtain ⟨r, ty_eq, od, us⟩ := x
  subst ty_eq
  rfl

end Idealize.ShloMosaic.StableHlo.TRef
-- ==== Proof.KernelArrays.lean ====
/-
  What the kernel's region is launched on: the five arrays its windows stage, as the host lines before it leave them.

  The two row arrays are `res` and the scattered array, each viewed as 262144 rows of 128; the two weight arrays are
  rows `0 … 127` and rows `128 … 255` of the weight matrix; the bias row is the bias vector viewed as one row.
  The scattered array is computed by the same host lines as in the reference program — the gather of rows by the
  interpolation indices, the two joins, the accumulating scatter by the up-sampling indices — and is named here by the
  reference's own stage for it, never opened.
-/
import proofs.«114572_j34608846471731_1_alg».proof.Proof.Gen.KernelIdeal.Frame
import proofs.«114572_j34608846471731_1_alg».proof.Proof.RefRead
import proofs.«114572_j34608846471731_1_alg».proof.Proof.LibTypedRef
import Idealize.ShloMosaic.Lib.StableHlo.Run
import Idealize.ShloMosaic.PureOps.Ideal

noncomputable section

namespace Cert.UpsampleMlp

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The first row array is `res` viewed as `[262144, 128]`. -/
theorem V_rows (c : Dev nD) :
    (V m c main_v24 : S262144x128.Idx → EReal)
      = shapeCast S262144x128 (m ((c.tc : Thread nD τ).loc main_arg3)) shapeCasts_S4x65536x128_S262144x128 := by
  dsimp only [Gen.V, Gen.V0]
  simp only [Gen.hostOps0, Gen.hostOps0_1, Gen.hostOps0_2, List.flatten_cons, List.flatten_nil, List.append_nil,
    List.cons_append, List.nil_append]
  after_results_simp <;> rfl

/-- The upper weight half is rows `0 … 127` of the weight matrix. -/
theorem V_upper (c : Dev nD) :
    (V m c main_v21 : S128x128.Idx → EReal)
      = extractStridedSlice S128x128 ![0, 0] (m ((c.tc : Thread nD τ).loc main_arg4)) slices_S256x128_S128x128_0_0 := by
  dsimp only [Gen.V, Gen.V0]
  simp only [Gen.hostOps0, Gen.hostOps0_1, Gen.hostOps0_2, List.flatten_cons, List.flatten_nil, List.append_nil,
    List.cons_append, List.nil_append]
  after_results_simp <;> rfl

/-- The lower weight half is rows `128 … 255` of the weight matrix. -/
theorem V_lower (c : Dev nD) :
    (V m c main_v22 : S128x128.Idx → EReal)
      = extractStridedSlice S128x128 ![128, 0] (m ((c.tc : Thread nD τ).loc main_arg4)) slices_S256x128_S128x128_128_0 := by
  dsimp only [Gen.V, Gen.V0]
  simp only [Gen.hostOps0, Gen.hostOps0_1, Gen.hostOps0_2, List.flatten_cons, List.flatten_nil, List.append_nil,
    List.cons_append, List.nil_append]
  after_results_simp <;> rfl

/-- The bias row is the bias vector viewed as `[1, 128]`. -/
theorem V_bias (c : Dev nD) :
    (V m c main_v23 : S1x128.Idx → EReal)
      = shapeCast S1x128 (m ((c.tc : Thread nD τ).loc main_arg5)) shapeCasts_S128_S1x128 := by
  dsimp only [Gen.V, Gen.V0]
  simp only [Gen.hostOps0, Gen.hostOps0_1, Gen.hostOps0_2, List.flatten_cons, List.flatten_nil, List.append_nil,
    List.cons_append, List.nil_append]
  after_results_simp <;> rfl

set_option maxRecDepth 262144 in
set_option maxHeartbeats 40000000 in
/-- The second row array is the scattered array viewed as `[262144, 128]`. The scattered array is what the host lines
    before the region compute from the features and the two index arrays; the reference program computes it by the
    same lines, and its stage for it names it here. -/
theorem V_scattered (c : Dev nD) :
    (V m c main_v25 : S262144x128.Idx → EReal)
      = shapeCast S262144x128
          (Cert.ReferenceIdeal.ReadP.val_main_v20 (F := Ideal) (m ((c.tc : Thread nD τ).loc main_arg0))
            (m ((c.tc : Thread nD τ).loc main_arg1)) (m ((c.tc : Thread nD τ).loc main_arg2)))
          shapeCasts_S4x65536x128_S262144x128 := by
  dsimp only [Gen.V, Gen.V0]
  simp only [Gen.hostOps0, Gen.hostOps0_1, Gen.hostOps0_2, List.flatten_cons, List.flatten_nil, List.append_nil,
    List.cons_append, List.nil_append]
  after_results
  simp only [TRef.ofBuf_toBuf]
  rfl

end Cert.UpsampleMlp

end
-- ==== Proof.FlatRows.lean ====
/-
  The flat-row form of the layer, viewed back as `[4, 65536, 128]`, is the layer.

  Viewing a `[4, 65536, 128]` array as `[262144, 128]` keeps every element's row-major position: row `(b, n)` becomes
  row `65536 b + n`. The upper half of the weight matrix is its rows `0 … 127`, the lower half its rows
  `128 … 255`; the bias row is the bias vector.
-/
import proofs.«114572_j34608846471731_1_alg».proof.Proof.MlpSpec
import Idealize.ShloMosaic.Lib.ValueLayout
import Idealize.ShloMosaic.Lib.Pipeline.Value

noncomputable section

open scoped BigOperators

namespace Cert.UpsampleMlp

open Idealize.ShloMosaic Idealize.ShloMosaic.ValueIdx

/-- Row `65536 b + n` of the flat view is row `(b, n)`. -/
theorem flatten_apply {α : Type} (x : (⟨3, ![4, 65536, 128]⟩ : Shape).Idx → α)
    (h : (⟨3, ![4, 65536, 128]⟩ : Shape).ShapeCasts ⟨2, ![262144, 128]⟩) (b : Fin 4) (n : Fin 65536) (k : Fin 128)
    (r : Fin 262144) (hr : r.val = b.val * 65536 + n.val) :
    shapeCast ⟨2, ![262144, 128]⟩ x h (ix2 r k) = x (ix3 b n k) :=
  shapeCast_apply x h _ _ (by
    rw [Shape.rowMajor_val_two, Shape.rowMajor_val_three]
    show (b.val * 65536 + n.val) * 128 + k.val = r.val * 128 + k.val
    rw [hr])

/-- Row `(b, n)` of the view back is row `65536 b + n`. -/
theorem unflatten_apply {α : Type} (y : (⟨2, ![262144, 128]⟩ : Shape).Idx → α)
    (h : (⟨2, ![262144, 128]⟩ : Shape).ShapeCasts ⟨3, ![4, 65536, 128]⟩) (b : Fin 4) (n : Fin 65536) (u : Fin 128)
    (r : Fin 262144) (hr : r.val = b.val * 65536 + n.val) :
    shapeCast ⟨3, ![4, 65536, 128]⟩ y h (ix3 b n u) = y (ix2 r u) :=
  shapeCast_apply y h _ _ (by
    rw [Shape.rowMajor_val_two, Shape.rowMajor_val_three]
    show r.val * 128 + u.val = (b.val * 65536 + n.val) * 128 + u.val
    rw [hr])

/-- The layer computed on the flat rows from the two weight halves and the bias row, viewed back, is the layer. -/
theorem flat_eq_mlp (res scat : (⟨3, ![4, 65536, 128]⟩ : Shape).Idx → EReal) (W : (⟨2, ![256, 128]⟩ : Shape).Idx → EReal)
    (bias : (⟨1, ![128]⟩ : Shape).Idx → EReal)
    (hflat : (⟨3, ![4, 65536, 128]⟩ : Shape).ShapeCasts ⟨2, ![262144, 128]⟩)
    (hrow : (⟨1, ![128]⟩ : Shape).ShapeCasts ⟨2, ![1, 128]⟩)
    (hlo : (⟨2, ![256, 128]⟩ : Shape).Slices ![0, 0] ⟨2, ![128, 128]⟩)
    (hhi : (⟨2, ![256, 128]⟩ : Shape).Slices ![128, 0] ⟨2, ![128, 128]⟩)
    (hback : (⟨2, ![262144, 128]⟩ : Shape).ShapeCasts ⟨3, ![4, 65536, 128]⟩) :
    shapeCast ⟨3, ![4, 65536, 128]⟩
        (mlpFlat (shapeCast ⟨2, ![262144, 128]⟩ res hflat) (shapeCast ⟨2, ![262144, 128]⟩ scat hflat)
          (extractStridedSlice ⟨2, ![128, 128]⟩ ![0, 0] W hlo) (extractStridedSlice ⟨2, ![128, 128]⟩ ![128, 0] W hhi)
          (shapeCast ⟨2, ![1, 128]⟩ bias hrow)) hback
      = mlp res scat W bias := by
  funext i
  obtain ⟨b, n, u, rfl⟩ : ∃ (b : Fin 4) (n : Fin 65536) (u : Fin 128), i = ix3 b n u := ⟨i 0, i 1, i 2, eq_ix3 i⟩
  have hb := b.isLt
  have hn := n.isLt
  refine (unflatten_apply _ hback b n u ⟨b.val * 65536 + n.val, by omega⟩ rfl).trans ?_
  refine (mlpFlat_at _ _ _ _ _ _ ⟨b.val * 65536 + n.val, by omega⟩ u rfl rfl).trans ?_
  refine congrArg₂ max (congrArg₂ (· + ·) (congrArg₂ (· + ·) (Finset.sum_congr rfl fun k _ => ?_)
    (Finset.sum_congr rfl fun k _ => ?_)) ?_) rfl
  · exact congrArg₂ (· * ·) (flatten_apply res hflat b n k _ rfl)
      (slice2_axis0_apply 0 W hlo k u (lo k) (by show k.val = 0 + k.val; omega))
  · exact congrArg₂ (· * ·) (flatten_apply scat hflat b n k _ rfl)
      (slice2_axis0_apply 128 W hhi k u (hi k) rfl)
  · exact shapeCast_a_1a_apply bias hrow (0 : Fin 1) u

end Cert.UpsampleMlp

end
-- ==== Proof.KernelResult.lean ====
/-
  The kernel program's result is the layer of its arguments and of the scattered array.

  The region's output is the flat-row layer of the arrays it is launched on; those arrays are views and row ranges
  of the arguments and of the scattered array; and the flat-row layer of those, viewed back, is the layer.
-/
import proofs.«114572_j34608846471731_1_alg».proof.Proof.KernelRun
import proofs.«114572_j34608846471731_1_alg».proof.Proof.KernelArrays
import proofs.«114572_j34608846471731_1_alg».proof.Proof.FlatRows

noncomputable section

namespace Cert.UpsampleMlp

open Cert.KernelIdeal Cert.KernelIdeal.Gen Idealize.ShloMosaic Idealize.ShloMosaic.TcCoe Idealize.SL.Sem

variable (m : (ℓ : Loc nD τ sig) → Buf (Elt Ideal) ℓ)

/-- The scattered array, as the host lines before the region compute it from the features and the two index arrays. -/
abbrev scattered (c : Dev nD) : (⟨3, ![4, 65536, 128]⟩ : Shape).Idx → EReal :=
  Cert.ReferenceIdeal.ReadP.val_main_v20 (F := Ideal) (m ((c.tc : Thread nD τ).loc main_arg0))
    (m ((c.tc : Thread nD τ).loc main_arg1)) (m ((c.tc : Thread nD τ).loc main_arg2))

/-- The kernel program's result, viewed as `[4, 65536, 128]`, is the layer. -/
theorem kernel_result (c : Dev nD) :
    shapeCast S4x65536x128 (outFlat m c) shapeCasts_S262144x128_S4x65536x128
      = mlp (m ((c.tc : Thread nD τ).loc main_arg3)) (scattered m c) (m ((c.tc : Thread nD τ).loc main_arg4))
          (m ((c.tc : Thread nD τ).loc main_arg5)) := by
  show shapeCast S4x65536x128 (mlpFlat (V m c main_v24) (V m c main_v25) (V m c main_v21) (V m c main_v22) (V m c main_v23))
    shapeCasts_S262144x128_S4x65536x128 = _
  rw [V_rows, V_scattered, V_upper, V_lower, V_bias]
  exact flat_eq_mlp _ _ _ _ _ _ _ _ _

end Cert.UpsampleMlp

end
-- ==== Proof.RefIsMlp.lean ====
/-
  The reference program's result is the layer of its arguments and of the scattered array.

  Its last lines join `res` and the scattered array along the last axis into rows of 256, multiply by the whole weight
  matrix, add the bias to every row and take the maximum with zero. Entry `c` of a joined row is `res`'s entry `c` for
  `c < 128` and the scattered array's entry `c - 128` otherwise, so the product's sum over 256 indices splits into the
  two sums over 128 of the layer.
-/
import proofs.«114572_j34608846471731_1_alg».proof.Proof.RefRead
import proofs.«114572_j34608846471731_1_alg».proof.Proof.MlpSpec
import Idealize.ShloMosaic.Lib.Pipeline.Value

noncomputable section

open scoped BigOperators

namespace Cert.UpsampleMlp

open Cert.ReferenceIdeal Cert.ReferenceIdeal.ReadP Idealize.ShloMosaic Idealize.ShloMosaic.ValueIdx

/-- Entry `k < 128` of the joined row `(b, n)` is `res[b, n, k]`. -/
theorem joined_lo (x0 : (⟨S4x32768x128, .f32⟩ : BufTy).Contents (Elt Ideal)) (x1 : (⟨S4x32768, .i32⟩ : BufTy).Contents (Elt Ideal))
    (x2 : (⟨S4x65536, .i32⟩ : BufTy).Contents (Elt Ideal)) (x3 : (⟨S4x65536x128, .f32⟩ : BufTy).Contents (Elt Ideal))
    (b : Fin 4) (n : Fin 65536) (u k : Fin 128) :
    val_main_v21 (F := Ideal) x0 x1 x2 x3 (lidx_main_v22 (ix3 b n u) (lo k)) = x3 (ix3 b n k) := by
  unfold val_main_v21
  exact concatenate_pair_apply_left (t := S4x65536x256) (s₁ := S4x65536x128) (s₂ := S4x65536x128) (2 : Fin 3) x3 _ _
    (lidx_main_v22 (ix3 b n u) (lo k)) rfl (ix3 b n k)
    (fun a => by
      match a with
      | ⟨0, _⟩ => rfl
      | ⟨1, _⟩ => rfl
      | ⟨2, _⟩ => rfl)

/-- Entry `128 + k` of the joined row `(b, n)` is the scattered array's `[b, n, k]`. -/
theorem joined_hi (x0 : (⟨S4x32768x128, .f32⟩ : BufTy).Contents (Elt Ideal)) (x1 : (⟨S4x32768, .i32⟩ : BufTy).Contents (Elt Ideal))
    (x2 : (⟨S4x65536, .i32⟩ : BufTy).Contents (Elt Ideal)) (x3 : (⟨S4x65536x128, .f32⟩ : BufTy).Contents (Elt Ideal))
    (b : Fin 4) (n : Fin 65536) (u k : Fin 128) :
    val_main_v21 (F := Ideal) x0 x1 x2 x3 (lidx_main_v22 (ix3 b n u) (hi k)) = val_main_v20 (F := Ideal) x0 x1 x2 (ix3 b n k) := by
  unfold val_main_v21
  exact concatenate_pair_apply_right (t := S4x65536x256) (s₁ := S4x65536x128) (s₂ := S4x65536x128) (2 : Fin 3) x3 _ _
    (lidx_main_v22 (ix3 b n u) (hi k)) rfl rfl (ix3 b n k)
    (fun a ha => by
      match a with
      | ⟨0, _⟩ => rfl
      | ⟨1, _⟩ => rfl
      | ⟨2, _⟩ => exact absurd rfl ha)
    (by show k.val + 128 = 128 + k.val; omega)

/-- The reference's last stage is the layer of `res`, the scattered array, the weights and the bias. -/
theorem ref_eq_mlp (x0 : (⟨S4x32768x128, .f32⟩ : BufTy).Contents (Elt Ideal)) (x1 : (⟨S4x32768, .i32⟩ : BufTy).Contents (Elt Ideal))
    (x2 : (⟨S4x65536, .i32⟩ : BufTy).Contents (Elt Ideal)) (x3 : (⟨S4x65536x128, .f32⟩ : BufTy).Contents (Elt Ideal))
    (x4 : (⟨S256x128, .f32⟩ : BufTy).Contents (Elt Ideal)) (x5 : (⟨S128, .f32⟩ : BufTy).Contents (Elt Ideal)) :
    val_main_v26 (F := Ideal) x0 x1 x2 x3 x4 x5 = mlp x3 (val_main_v20 (F := Ideal) x0 x1 x2) x4 x5 := by
  funext i
  obtain ⟨b, n, u, rfl⟩ : ∃ (b : Fin 4) (n : Fin 65536) (u : Fin 128), i = ix3 b n u := ⟨i 0, i 1, i 2, eq_ix3 i⟩
  rw [val_main_v26_apply, val_main_v25_apply, val_main_v22_apply, val_main_v24_apply, val_main_v23_apply,
    val_main_call1_v0_apply, val_main_call1_cst_apply, sum_halves]
  simp only [Ideal.maximumf_def, Ideal.addf_def, Ideal.ofBits_def]
  refine congrArg₂ max (congrArg₂ (· + ·) (congrArg₂ (· + ·) (Finset.sum_congr rfl fun k _ => ?_)
    (Finset.sum_congr rfl fun k _ => ?_)) ?_) rfl
  · exact congrArg₂ (· * ·) (joined_lo x0 x1 x2 x3 b n u k)
      (congrArg x4 (funext fun a => Fin.ext (by
        match a with
        | ⟨0, _⟩ => rfl
        | ⟨1, _⟩ => rfl)))
  · exact congrArg₂ (· * ·) (joined_hi x0 x1 x2 x3 b n u k)
      (congrArg x4 (funext fun a => Fin.ext (by
        match a with
        | ⟨0, _⟩ => rfl
        | ⟨1, _⟩ => rfl)))
  · exact congrArg x5 (funext fun a => Fin.ext (by
      match a with
      | ⟨0, _⟩ => rfl))

end Cert.UpsampleMlp

end
-- ==== Proof.lean ====
/-
  The certificate of the up-sampling layer: the kernel program against its reference, on the extended reals.

  Both programs first build the same scattered array from the features and the two index arrays (a gather of rows,
  two joins, an accumulating scatter), by the same host lines. The reference then joins `res` and the scattered array
  into rows of 256, multiplies by the 256 × 128 weight matrix, adds the bias and takes the maximum with zero. The
  kernel program instead views both arrays as 262144 rows, and a kernel over 64 blocks of 4096 rows multiplies the
  rows of `res` by the upper half of the weights and the rows of the scattered array by the lower half, adds the two
  products and the bias, and takes the maximum with zero; the result is viewed back as `[4, 65536, 128]`.
  The two are one function: a sum over the 256 entries of a joined row is the sum over its first 128 entries plus
  the sum over its last 128, which holds on the extended reals with no finiteness assumption.
  The frames of the two kernel programs are the generated ones; the reference's is its run with the result dropped.
-/
import proofs.«114572_j34608846471731_1_alg».proof.Defs
import proofs.«114572_j34608846471731_1_alg».proof.Proof.Gen.Kernel
import proofs.«114572_j34608846471731_1_alg».proof.Proof.Gen.Kernel.Skeleton
import proofs.«114572_j34608846471731_1_alg».proof.Proof.Gen.Kernel.Launch
import proofs.«114572_j34608846471731_1_alg».proof.Proof.Gen.Kernel.Points
import proofs.«114572_j34608846471731_1_alg».proof.Proof.Gen.Kernel.Frame
import proofs.«114572_j34608846471731_1_alg».proof.Proof.Gen.KernelIdeal
import proofs.«114572_j34608846471731_1_alg».proof.Proof.Gen.KernelIdeal.Skeleton
import proofs.«114572_j34608846471731_1_alg».proof.Proof.Gen.KernelIdeal.Launch
import proofs.«114572_j34608846471731_1_alg».proof.Proof.Gen.KernelIdeal.Points
import proofs.«114572_j34608846471731_1_alg».proof.Proof.Gen.KernelIdeal.Frame
import proofs.«114572_j34608846471731_1_alg».proof.Proof.Gen.ReferenceIdeal
import proofs.«114572_j34608846471731_1_alg».proof.Proof.Gen.Pre_finite_inputs
import proofs.«114572_j34608846471731_1_alg».proof.Proof.KernelResult
import proofs.«114572_j34608846471731_1_alg».proof.Proof.RefRun
import proofs.«114572_j34608846471731_1_alg».proof.Proof.RefIsMlp
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- Both programs end with the layer of `res`, the scattered array, the weights and the bias in their result. -/
theorem algebraic : Cert.algebraic_KernelIdeal_ReferenceIdeal := by
  intro m ρ m' ρ' _ hagree
  refine ⟨fun c => Cert.UpsampleMlp.mlp (m ((c.tc : Thread Cert.KernelIdeal.nD Cert.KernelIdeal.τ).loc Cert.KernelIdeal.main_arg3))
      (Cert.UpsampleMlp.scattered m c)
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.UpsampleMlp.kernel_result m c), (h c).2⟩) (Cert.UpsampleMlp.run m ρ)
  · refine (θ_run Cert.ReferenceIdeal.defs _ _).mono (fun _ h c => ⟨?_, (h c).2⟩)
      (Cert.ReferenceIdeal.RunP.run (F := Ideal) m' ρ')
    obtain ⟨e0, e1, e2, e3, e4, e5⟩ := hagree c
    rw [(h c).1, Cert.ReferenceIdeal.ReadP.val_main_v26_eq, Cert.UpsampleMlp.ref_eq_mlp, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
